-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64 : Shape := ⟨1, ![64]⟩
abbrev S1 : Shape := ⟨1, ![1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8192x64 .f32) (main_arg1 : FVec F S8192x64 .f32) (main_arg2 : FVec F S64 .f32) (main_arg3 : FVec F S1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8192x64 : Shape := ⟨2, ![8192, 64]⟩
abbrev S64 : Shape := ⟨1, ![64]⟩
abbrev S1 : Shape := ⟨1, ![1]⟩
abbrev S1x1 : Shape := ⟨2, ![1, 1]⟩
abbrev S1x64 : Shape := ⟨2, ![1, 64]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S1, .f32⟩
  | .hbm, ⟨4, _⟩ => ⟨S64, .f32⟩
  | .hbm, ⟨5, _⟩ => ⟨S1, .f32⟩
  | .hbm, ⟨6, _⟩ => ⟨S1x1, .f32⟩
  | .hbm, ⟨7, _⟩ => ⟨S1x64, .f32⟩
  | .hbm, ⟨8, _⟩ => ⟨S8192x64, .f32⟩
  | .hbm, ⟨9, _⟩ => ⟨S8192x64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1x1, .f32⟩
  | .local _ .vmem, ⟨5, _⟩ => ⟨S1024x1024, .f32⟩
  | .local _ .vmem, ⟨6, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1_S1x1 : S1.ShapeCasts S1x1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v5) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S64 : Shape := ⟨1, ![64]⟩
abbrev S1 : Shape := ⟨1, ![1]⟩
abbrev S1x64 : Shape := ⟨2, ![1, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S1, .f32⟩
  | .hbm, ⟨4, _⟩ => ⟨S64, .f32⟩
  | .hbm, ⟨5, _⟩ => ⟨S1, .f32⟩
  | .hbm, ⟨6, _⟩ => ⟨S1x64, .f32⟩
  | .hbm, ⟨7, _⟩ => ⟨S8192x64, .f32⟩
  | .hbm, ⟨8, _⟩ => ⟨S8192x64, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S8192x64, .f32⟩
  | .hbm, ⟨16, _⟩ => ⟨S_, .f32⟩
  | .hbm, ⟨17, _⟩ => ⟨S8192, .f32⟩
  | .hbm, ⟨18, _⟩ => ⟨S8192x8192, .f32⟩
  | .hbm, ⟨19, _⟩ => ⟨S8192x1, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S1x1, .f32⟩
  | .hbm, ⟨36, _⟩ => ⟨S8192x8192, .f32⟩
  | .hbm, ⟨37, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S1_S1x1_1 : S1.BroadcastsInDim S1x1 (![1] : Fin 1 → Fin S1x1.rank)
  bcast_S1x1_S8192x8192_0_1 : S1x1.BroadcastsInDim S8192x8192 (![0, 1] : Fin 2 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Spec.lean ====
/-
  The value both programs compute, as ONE function of the four argument arrays.

  The ARD RBF kernel matrix of two point sets: for points x_n, y_m ∈ ℝ⁶⁴, per-feature lengthscales
  ℓ_d = exp(log ℓ_d) and an output scale σ = exp(log σ),

      K[n, m] = σ · exp(−½ · max(‖x_n/ℓ‖² + ‖y_m/ℓ‖² − 2 ⟨x_n/ℓ, y_m/ℓ⟩, 0)),

  the squared distance ‖x_n/ℓ − y_m/ℓ‖² written out as two squared norms minus twice the inner product, and
  clamped at zero. Everything is read on the extended reals, with the three sums over the 64 features as
  finite sums; the three numerals (−½, 2, 0) are kept as the binary words both programs spell them with, so
  that neither side ever evaluates them.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- One entry of the matrix from a scaled point `a` (a row of x/ℓ), a scaled point `b` (a row of y/ℓ) and the output
    scale `s`: `s · exp(−½ · max(Σ a² + Σ b² − 2 Σ a·b, 0))`. -/
def entry (a b : Fin 64 → EReal) (s : EReal) : EReal :=
  s * Ideal.exp (Ideal.ofBits .f32 0xBF000000#32 *
    max ((∑ k : Fin 64, a k * a k) + (∑ k : Fin 64, b k * b k)
          - Ideal.ofBits .f32 0x40000000#32 * ∑ k : Fin 64, a k * b k)
      (Ideal.ofBits .f32 0x00000000#32))

/-- Point `r` of an [8192, 64] array with every feature divided by its lengthscale `exp (l k)`. -/
def scaled (x : (⟨2, ![8192, 64]⟩ : Shape).Idx → EReal) (l : (⟨1, ![64]⟩ : Shape).Idx → EReal)
    (r : Fin 8192) (k : Fin 64) : EReal :=
  Ideal.div (x (ix2 r k)) (Ideal.exp (l (ix1 k)))

/-- The matrix entry at row `r`, column `c`: point `r` of `x` against point `c` of `y`, both scaled by the same
    lengthscales, under the output scale `exp (s 0)`. -/
def at2 (x y : (⟨2, ![8192, 64]⟩ : Shape).Idx → EReal) (l : (⟨1, ![64]⟩ : Shape).Idx → EReal)
    (s : (⟨1, ![1]⟩ : Shape).Idx → EReal) (r c : Fin 8192) : EReal :=
  entry (scaled x l r) (scaled y l c) (Ideal.exp (s (ix1 (0 : Fin 1))))

/-- The whole [8192, 8192] matrix, index by index. -/
def G (x y : (⟨2, ![8192, 64]⟩ : Shape).Idx → EReal) (l : (⟨1, ![64]⟩ : Shape).Idx → EReal)
    (s : (⟨1, ![1]⟩ : Shape).Idx → EReal) : (⟨2, ![8192, 8192]⟩ : Shape).Idx → EReal :=
  fun i => at2 x y l s (i 0) (i 1)

/-- At an index given by its coordinates the matrix is the entry of those coordinates. -/
theorem G_ix2 (x y : (⟨2, ![8192, 64]⟩ : Shape).Idx → EReal) (l : (⟨1, ![64]⟩ : Shape).Idx → EReal)
    (s : (⟨1, ![1]⟩ : Shape).Idx → EReal) (r c : Fin 8192) : G x y l s (ix2 r c) = at2 x y l s r c := rfl

end Cert.Rbf

end
-- ==== Proof.RefIsG.lean ====
/-
  The reference's result is the matrix `G`.

  The host program divides both point sets by the lengthscales, sums the squares of each scaled point over
  its 64 features (a reduction from the initial value zero), contracts the two scaled sets over the feature
  axis, and applies to every (row, column) pair the same scalar expression the specification spells. Read at
  an index each stage is its operands at one index (a broadcast), a finite sum over the feature coordinate
  (the two reductions and the contraction), or a scalar operation of its operands there; the only step that
  is not a reading is `0 + Σ = Σ` for the reductions' initial value.
-/
import proofs.«154401_j12661563589010_1_alg».proof.Proof.Gen.ReferenceIdeal.Read
import proofs.«154401_j12661563589010_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Rbf

variable (x0 x1 : (⟨S8192x64, .f32⟩ : BufTy).Contents (Elt Ideal)) (x2 : (⟨S64, .f32⟩ : BufTy).Contents (Elt Ideal))
  (x3 : (⟨S1, .f32⟩ : BufTy).Contents (Elt Ideal))

/-- The first point set divided by the lengthscales, at point `r`, feature `k`: the lengthscale row is broadcast
    along the points, so only the feature coordinate reaches it. -/
theorem xs_at (r : Fin 8192) (k : Fin 64) : val_main_v4 (F := Ideal) x0 x2 (ix2 r k) = scaled x0 x2 r k := by
  rw [val_main_v4_apply, val_main_v3_apply, val_main_v2_apply, val_main_v0_apply,
    show idx_main_v2 (idx_main_v3 (ix2 r k)) = ix1 k from funext fun a => Fin.ext (by match a with | ⟨0, _⟩ => rfl)]
  rfl

/-- The second point set likewise. -/
theorem ys_at (r : Fin 8192) (k : Fin 64) : val_main_v7 (F := Ideal) x1 x2 (ix2 r k) = scaled x1 x2 r k := by
  rw [val_main_v7_apply, val_main_v6_apply, val_main_v5_apply, val_main_v0_apply,
    show idx_main_v5 (idx_main_v6 (ix2 r k)) = ix1 k from funext fun a => Fin.ext (by match a with | ⟨0, _⟩ => rfl)]
  rfl

/-- The squared norm of scaled point `r` of the first set: the reduction's initial value is zero. -/
theorem xnorm_at (r : Fin 8192) :
    val_main_v9 (F := Ideal) x0 x2 (ix1 r) = ∑ k : Fin 64, scaled x0 x2 r k * scaled x0 x2 r k := by
  rw [val_main_v9_apply]
  show Ideal.ofBits .f32 0x00000000#32 + _ = _
  rw [Ideal.ofBits_zero_f32, zero_add]
  refine Finset.sum_congr rfl fun k _ => ?_
  rw [show idx_main_v9 (ix1 r) k = ix2 r k from
    funext fun a => Fin.ext (by match a with | ⟨0, _⟩ => rfl | ⟨1, _⟩ => rfl), val_main_v8_apply, xs_at]
  rfl

/-- The squared norm of scaled point `c` of the second set. -/
theorem ynorm_at (c : Fin 8192) :
    val_main_v11 (F := Ideal) x1 x2 (ix1 c) = ∑ k : Fin 64, scaled x1 x2 c k * scaled x1 x2 c k := by
  rw [val_main_v11_apply]
  show Ideal.ofBits .f32 0x00000000#32 + _ = _
  rw [Ideal.ofBits_zero_f32, zero_add]
  refine Finset.sum_congr rfl fun k _ => ?_
  rw [show idx_main_v11 (ix1 c) k = ix2 c k from
    funext fun a => Fin.ext (by match a with | ⟨0, _⟩ => rfl | ⟨1, _⟩ => rfl), val_main_v10_apply, ys_at]
  rfl

/-- The inner product of scaled point `r` of the first set with scaled point `c` of the second: the contraction
    runs over the feature axis of both operands. -/
theorem cross_at (r c : Fin 8192) :
    val_main_v12 (F := Ideal) x0 x1 x2 (ix2 r c) = ∑ k : Fin 64, scaled x0 x2 r k * scaled x1 x2 c k := by
  rw [val_main_v12_apply]
  refine Finset.sum_congr rfl fun k _ => ?_
  rw [show lidx_main_v12 (ix2 r c) k = ix2 r k from
      funext fun a => Fin.ext (by match a with | ⟨0, _⟩ => rfl | ⟨1, _⟩ => rfl),
    show ridx_main_v12 (ix2 r c) k = ix2 c k from
      funext fun a => Fin.ext (by match a with | ⟨0, _⟩ => rfl | ⟨1, _⟩ => rfl), xs_at, ys_at]

/-- THE REFERENCE IS `G`: at (r, c) the squared norms arrive by a column and a row broadcast, the scale by a
    broadcast of its one element, the three numerals by splats, and the scalar expression around them is the
    specification's, operation for operation. -/
theorem result_eq : val_main_v28 (F := Ideal) x0 x1 x2 x3 = G x0 x1 x2 x3 := by
  funext i
  obtain ⟨r, c, rfl⟩ : ∃ (r c : Fin 8192), i = ix2 r c := ⟨i 0, i 1, eq_ix2 i⟩
  rw [val_main_v28_apply, val_main_v27_apply, val_main_v26_apply, val_main_v1_apply,
    val_main_v25_apply, val_main_v24_apply, val_main_v23_apply, val_main_cst_3_apply,
    val_main_v22_apply, val_main_v21_apply, val_main_cst_2_apply, val_main_v20_apply,
    val_main_v17_apply, val_main_v15_apply, val_main_v13_apply, val_main_v16_apply, val_main_v14_apply,
    val_main_v19_apply, val_main_v18_apply, val_main_cst_1_apply,
    show idx_main_v13 (idx_main_v15 (ix2 r c)) = ix1 r from funext fun a => Fin.ext (by match a with | ⟨0, _⟩ => rfl),
    show idx_main_v14 (idx_main_v16 (ix2 r c)) = ix1 c from funext fun a => Fin.ext (by match a with | ⟨0, _⟩ => rfl),
    show idx_main_v26 (idx_main_v27 (ix2 r c)) = ix1 (0 : Fin 1) from funext fun a => Fin.ext (by match a with | ⟨0, _⟩ => rfl),
    xnorm_at, ynorm_at, cross_at, G_ix2]
  rfl

end Cert.ReferenceIdeal.RefValue

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.Payload.lean ====
/-
  The kernel body's stored value, read at one element.

  At a grid point the body holds a block `v0` of 1024 scaled points of the first set, a block `v2` of 1024
  scaled points of the second, and the output scale as a 1×1 block `v20`. It sums the squares of each point
  over the 64 features (a lane sum per row, kept as a column), turns the second set's column into a row,
  multiplies the two blocks contracting the feature axis into a zero accumulator, and combines the three at
  every (p, q) by the specification's scalar expression. So the element at (p, q) is `entry` of row p of
  `v0`, row q of `v2` and the one element of `v20`: each non-pointwise step read at an index is one
  element or one finite sum of its operand.
-/
import proofs.«154401_j12661563589010_1_alg».proof.Proof.Gen.KernelIdeal.Skeleton
import proofs.«154401_j12661563589010_1_alg».proof.Proof.Spec
import proofs.«154401_j12661563589010_1_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.Rbf

/-- The squared norms of a block's 1024 points as a column: the lane sum over the 64 features of the
    elementwise square, reshaped [1024] → [1024, 1]. (The body first casts the loaded block to its own shape.) -/
def sqcol (v : Vec Ideal S1024x64 .f32) : FVec Ideal S1024x1 .f32 :=
  shapeCast S1024x1
    (multiReduction .add [1] S1024
      (mulf (shapeCast S1024x64 v shapeCasts_S1024x64_S1024x64) (shapeCast S1024x64 v shapeCasts_S1024x64_S1024x64))
      0x00000000#32 reduces_S1024x64_S1024 (.inl rfl) rfl)
    shapeCasts_S1024_S1024x1

/-- Row `p` of the column is the sum over the features of the squares of point `p`. -/
theorem sqcol_apply (v : Vec Ideal S1024x64 .f32) (p : Fin 1024) :
    sqcol v (ix2 p (0 : Fin 1)) = ∑ k : Fin 64, v (ix2 p k) * v (ix2 p k) := by
  unfold sqcol
  rw [shapeCast_self v shapeCasts_S1024x64_S1024x64]
  exact Cert.Lib.Keepdims.sumCol_apply (mulf v v) 0x00000000#32 reduces_S1024x64_S1024 (.inl rfl) rfl
    shapeCasts_S1024_S1024x1 p

/-- A column broadcast along the columns: element (p, q) is the column's row `p`. -/
theorem bcol_apply (col : FVec Ideal S1024x1 .f32) (p q : Fin 1024) :
    broadcastTo S1024x1024 col broadcasts_S1024x1_S1024x1024 (ix2 p q) = col (ix2 p (0 : Fin 1)) :=
  Cert.Lib.Keepdims.bcastCol_apply col broadcasts_S1024x1_S1024x1024 p q

/-- A column turned into a row and broadcast along the rows: element (p, q) is the column's row `q`. -/
theorem brow_apply (col : FVec Ideal S1024x1 .f32) (p q : Fin 1024) :
    broadcastTo S1024x1024 (transpose S1x1024 [1, 0] col transposes_S1024x1_p1_0_S1x1024) broadcasts_S1x1024_S1024x1024 (ix2 p q)
      = col (ix2 q (0 : Fin 1)) :=
  Cert.Lib.Keepdims.bcastColAsRow_apply col transposes_S1024x1_p1_0_S1x1024 broadcasts_S1x1024_S1024x1024 p q

/-- The product of the two blocks contracting the feature axis, into a zero accumulator: element (p, q) is the
    inner product of point `p` of the first block with point `q` of the second. -/
theorem cross_apply (v0 v2 : Vec Ideal S1024x64 .f32) (p q : Fin 1024) :
    matmul (F := Ideal) (φ₁ := .f32) (φ₂ := .f32) dot_S1024x64_S1024x64_S1024x1024_1_1_0_0_n_n none
        (shapeCast S1024x64 v0 shapeCasts_S1024x64_S1024x64) (shapeCast S1024x64 v2 shapeCasts_S1024x64_S1024x64)
        (constant S1024x1024 .f32 0x00000000#32) (ix2 p q)
      = ∑ k : Fin 64, v0 (ix2 p k) * v2 (ix2 q k) := by
  rw [shapeCast_self v0 shapeCasts_S1024x64_S1024x64, shapeCast_self v2 shapeCasts_S1024x64_S1024x64]
  refine (Ideal.matmul_constant_zero_apply dot_S1024x64_S1024x64_S1024x1024_1_1_0_0_n_n none v0 v2 (ix2 p q)).trans ?_
  rw [← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx (ix2 p q)
      ((ValueIdx.contrEquiv1 dot_S1024x64_S1024x64_S1024x1024_1_1_0_0_n_n 64 rfl rfl).symm k) = ix2 p k :=
    funext fun a => Fin.ext (by
      match a with
      | ⟨0, _⟩ =>
        show (dot_S1024x64_S1024x64_S1024x1024_1_1_0_0_n_n.lhsIdx (ix2 p q) _ 0).val = p.val
        unfold DotDims.lhsIdx
        rw [dif_neg (show ¬(0 : Fin S1024x64.rank) ∈ dot_S1024x64_S1024x64_S1024x1024_1_1_0_0_n_n.lhsBatch by decide),
          dif_pos (show (0 : Fin S1024x64.rank) ∈ dot_S1024x64_S1024x64_S1024x1024_1_1_0_0_n_n.lhsNonContracting by decide)]
        rfl
      | ⟨1, _⟩ => exact (dot_S1024x64_S1024x64_S1024x1024_1_1_0_0_n_n.lhsIdx_val_of_single rfl (ix2 p q) _).trans hk)
  have er : dot_S1024x64_S1024x64_S1024x1024_1_1_0_0_n_n.rhsIdx (ix2 p q)
      ((ValueIdx.contrEquiv1 dot_S1024x64_S1024x64_S1024x1024_1_1_0_0_n_n 64 rfl rfl).symm k) = ix2 q k :=
    funext fun a => Fin.ext (by
      match a with
      | ⟨0, _⟩ =>
        show (dot_S1024x64_S1024x64_S1024x1024_1_1_0_0_n_n.rhsIdx (ix2 p q) _ 0).val = q.val
        unfold DotDims.rhsIdx
        rw [dif_neg (show ¬(0 : Fin S1024x64.rank) ∈ dot_S1024x64_S1024x64_S1024x1024_1_1_0_0_n_n.rhsBatch by decide),
          dif_pos (show (0 : Fin S1024x64.rank) ∈ dot_S1024x64_S1024x64_S1024x1024_1_1_0_0_n_n.rhsNonContracting by decide)]
        rfl
      | ⟨1, _⟩ => exact (dot_S1024x64_S1024x64_S1024x1024_1_1_0_0_n_n.rhsIdx_val_of_single rfl (ix2 p q) _).trans hk)
  rw [el, er]

/-- The scale block's one element. -/
theorem scale_apply (v20 : Vec Ideal S1x1 .f32) :
    extractAt ![0, 0] v20 inpos_S1x1_p0_0 = v20 (ix2 (0 : Fin 1) (0 : Fin 1)) :=
  congrArg v20 (funext fun a => Fin.ext (by match a with | ⟨0, _⟩ => rfl | ⟨1, _⟩ => rfl))

/-- The body's stored value is these pieces under the pointwise operations. -/
theorem pay_eq (v0 v2 : Vec Ideal S1024x64 .f32) (v20 : Vec Ideal S1x1 .f32) :
    k0_pay1 (F := Ideal) v0 v2 v20
      = mulf (broadcast S1024x1024 (extractAt ![0, 0] v20 inpos_S1x1_p0_0))
          (exp (mulf (broadcast S1024x1024 (Scalar.ofBits .f32 0xBF000000#32))
            (maximumf
              (subf
                (addf (broadcastTo S1024x1024 (sqcol v0) broadcasts_S1024x1_S1024x1024)
                  (broadcastTo S1024x1024 (transpose S1x1024 [1, 0] (sqcol v2) transposes_S1024x1_p1_0_S1x1024)
                    broadcasts_S1x1024_S1024x1024))
                (mulf (broadcast S1024x1024 (Scalar.ofBits .f32 0x40000000#32))
                  (matmul (F := Ideal) (φ₁ := .f32) (φ₂ := .f32) dot_S1024x64_S1024x64_S1024x1024_1_1_0_0_n_n none
                    (shapeCast S1024x64 v0 shapeCasts_S1024x64_S1024x64) (shapeCast S1024x64 v2 shapeCasts_S1024x64_S1024x64)
                    (constant S1024x1024 .f32 0x00000000#32))))
              (broadcast S1024x1024 (Scalar.ofBits .f32 0x00000000#32))))) := rfl

/-- THE PAYLOAD AT (p, q): the specification's entry of row `p` of the first block, row `q` of the second, and the
    scale block's element. -/
theorem pay_apply (v0 v2 : Vec Ideal S1024x64 .f32) (v20 : Vec Ideal S1x1 .f32) (p q : Fin 1024) :
    k0_pay1 (F := Ideal) v0 v2 v20 (ix2 p q)
      = entry (fun k => v0 (ix2 p k)) (fun k => v2 (ix2 q k)) (v20 (ix2 (0 : Fin 1) (0 : Fin 1))) := by
  rw [pay_eq]
  show extractAt ![0, 0] v20 inpos_S1x1_p0_0 * Ideal.exp (Ideal.ofBits .f32 0xBF000000#32 *
      max (broadcastTo S1024x1024 (sqcol v0) broadcasts_S1024x1_S1024x1024 (ix2 p q)
            + broadcastTo S1024x1024 (transpose S1x1024 [1, 0] (sqcol v2) transposes_S1024x1_p1_0_S1x1024)
                broadcasts_S1x1024_S1024x1024 (ix2 p q)
            - Ideal.ofBits .f32 0x40000000#32 *
                matmul (F := Ideal) (φ₁ := .f32) (φ₂ := .f32) dot_S1024x64_S1024x64_S1024x1024_1_1_0_0_n_n none
                  (shapeCast S1024x64 v0 shapeCasts_S1024x64_S1024x64) (shapeCast S1024x64 v2 shapeCasts_S1024x64_S1024x64)
                  (constant S1024x1024 .f32 0x00000000#32) (ix2 p q))
        (Ideal.ofBits .f32 0x00000000#32)) = _
  rw [scale_apply, bcol_apply, brow_apply, sqcol_apply, sqcol_apply, cross_apply]
  rfl

end Cert.KernelIdeal.Payload

end
-- ==== Proof.HostPrefix.lean ====
/-
  What the region finds in its three input arrays.

  Before the kernel is launched the host divides each point set by the lengthscales `exp (log ℓ)` — the
  lengthscale vector broadcast to a row and then along the points — and reshapes the one-element output scale
  `exp (log σ)` to a 1×1 array. So the first window's array at (r, k) is point `r`, feature `k` of the first set
  over the `k`-th lengthscale, the second window's likewise for the second set, and the third window's one element
  is the output scale.
-/
import proofs.«154401_j12661563589010_1_alg».proof.Proof.Gen.KernelIdeal.Frame
import proofs.«154401_j12661563589010_1_alg».proof.Proof.Spec
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen
open Idealize.ShloMosaic Idealize.ShloMosaic.TcCoe Idealize.SL.Sem Idealize.ShloMosaic.StableHlo
open Idealize.ShloMosaic.ValueIdx Cert.Rbf

/-- A point set divided by the broadcast lengthscales, at point `r`, feature `k`: only the feature coordinate
    reaches the lengthscale vector. -/
theorem scaled_at (x : FVec Ideal S8192x64 .f32) (l : FVec Ideal S64 .f32) (r : Fin 8192) (k : Fin 64) :
    Host.divf (F := Ideal) x
        (broadcastInDim S8192x64 ![0, 1] bcast_S1x64_S8192x64_0_1
          (broadcastInDim S1x64 ![1] bcast_S64_S1x64_1 (Host.exp (F := Ideal) l))) (ix2 r k)
      = scaled x l r k := by
  show Ideal.div (x (ix2 r k))
      (broadcastInDim S8192x64 ![0, 1] bcast_S1x64_S8192x64_0_1
        (broadcastInDim S1x64 ![1] bcast_S64_S1x64_1 (Host.exp (F := Ideal) l)) (ix2 r k)) = _
  rw [broadcastInDim_apply _ bcast_S1x64_S8192x64_0_1 _ (ix2 r k) (ix2 (0 : Fin 1) k) (fun a => match a with
      | ⟨0, _⟩ => by show 0 = if (1 : Nat) = 1 then 0 else r.val; rw [if_pos rfl]
      | ⟨1, _⟩ => by show k.val = if (64 : Nat) = 1 then 0 else k.val; rw [if_neg (by decide)]),
    broadcastInDim_apply _ bcast_S64_S1x64_1 _ (ix2 (0 : Fin 1) k) (ix1 k) (fun a => match a with
      | ⟨0, _⟩ => by show k.val = if (64 : Nat) = 1 then 0 else k.val; rw [if_neg (by decide)])]
  rfl

section Terms
variable {F : FTy → Type} [FloatOps F] (m : (ℓ : Loc nD τ sig) → Buf (Elt F) ℓ)

/-- The first window's array: the first point set over the lengthscales. -/
theorem xs_term (c : Dev nD) : (V m c main_v5 : FVec F S8192x64 .f32)
    = Host.divf (m ((c : Thread nD τ).loc main_arg0))
        (broadcastInDim S8192x64 ![0, 1] bcast_S1x64_S8192x64_0_1
          (broadcastInDim S1x64 ![1] bcast_S64_S1x64_1 (Host.exp (m ((c : Thread nD τ).loc main_arg2))))) := by
  dsimp only [V, hostOps0]; after_results

/-- The second window's array: the second point set over the same lengthscales. -/
theorem ys_term (c : Dev nD) : (V m c main_v8 : FVec F S8192x64 .f32)
    = Host.divf (m ((c : Thread nD τ).loc main_arg1))
        (broadcastInDim S8192x64 ![0, 1] bcast_S1x64_S8192x64_0_1
          (broadcastInDim S1x64 ![1] bcast_S64_S1x64_1 (Host.exp (m ((c : Thread nD τ).loc main_arg2))))) := by
  dsimp only [V, hostOps0]; after_results

/-- The third window's array: the output scale, reshaped [1] → [1, 1]. -/
theorem scale_term (c : Dev nD) : (V m c main_v2 : FVec F S1x1 .f32)
    = shapeCast S1x1 (Host.exp (m ((c : Thread nD τ).loc main_arg3))) shapeCasts_S1_S1x1 := by
  dsimp only [V, hostOps0]; after_results; rfl

end Terms

variable (m : (ℓ : Loc nD τ sig) → Buf (Elt Ideal) ℓ)

theorem xs_at (c : Dev nD) (r : Fin 8192) (k : Fin 64) :
    V m c main_v5 (ix2 r k) = scaled (m ((c : Thread nD τ).loc main_arg0)) (m ((c : Thread nD τ).loc main_arg2)) r k :=
  (congrFun (xs_term m c) (ix2 r k)).trans (scaled_at _ _ r k)

theorem ys_at (c : Dev nD) (r : Fin 8192) (k : Fin 64) :
    V m c main_v8 (ix2 r k) = scaled (m ((c : Thread nD τ).loc main_arg1)) (m ((c : Thread nD τ).loc main_arg2)) r k :=
  (congrFun (ys_term m c) (ix2 r k)).trans (scaled_at _ _ r k)

theorem scale_at (c : Dev nD) :
    V m c main_v2 (ix2 (0 : Fin 1) (0 : Fin 1)) = Ideal.exp (m ((c : Thread nD τ).loc main_arg3) (ix1 (0 : Fin 1))) := by
  refine (congrFun (scale_term m c) (ix2 (0 : Fin 1) (0 : Fin 1))).trans ?_
  refine (shapeCast_apply _ shapeCasts_S1_S1x1 (ix2 (0 : Fin 1) (0 : Fin 1)) (ix1 (0 : Fin 1)) ?_).trans rfl
  rw [Shape.rowMajor_val_one, Shape.rowMajor_val_two]
  rfl

end Cert.KernelIdeal.HostPrefix

end
-- ==== Proof.Blocks.lean ====
/-
  From the blocks to the whole matrix.

  The 8 × 8 grid tiles the [8192, 8192] result by [1024, 1024] blocks: point (i, j) reads block i of the first
  scaled point set, block j of the second and the 1×1 scale, and writes back block (i, j) of the result. An
  element (p, q) of that block is the payload's entry of row p of the first input block and row q of the second,
  that is of points 1024·i + p and 1024·j + q of the scaled sets — which is the matrix `G` at row 1024·i + p,
  column 1024·j + q, the place the element is written to. Every index of the result lies in exactly the block
  of the point (row / 1024, column / 1024), so after the run the array is `G` everywhere.
-/
import proofs.«154401_j12661563589010_1_alg».proof.Proof.Gen.KernelIdeal.Value
import proofs.«154401_j12661563589010_1_alg».proof.Proof.Payload
import proofs.«154401_j12661563589010_1_alg».proof.Proof.HostPrefix

noncomputable section

namespace Cert.KernelIdeal.Whole

open Cert.KernelIdeal Cert.KernelIdeal.Gen
open Idealize.ShloMosaic Idealize.ShloMosaic.TcCoe Idealize.SL.Sem
open Idealize.ShloMosaic.Pipeline (Dat)
open Idealize.ShloMosaic.ValueIdx Cert.Rbf

variable (m : (ℓ : Loc nD τ sig) → Buf (Elt Ideal) ℓ) (ρ : Dev nD → PrngReg)

theorem zero_offsets : (![0, 0] : Fin 2 → Nat) = fun _ => 0 := funext fun a => by fin_cases a <;> rfl

/-- The matrix of the launch contents of the four arguments. -/
abbrev K (c : Dev nD) : S8192x8192.Idx → EReal :=
  G (m ((c : Thread nD τ).loc main_arg0)) (m ((c : Thread nD τ).loc main_arg1))
    (m ((c : Thread nD τ).loc main_arg2)) (m ((c : Thread nD τ).loc main_arg3))

/-- The block indices over the grid's 64 points: the first input moves with the result's rows, the second with its
    columns, both at feature block 0; the scale stays at its one block; the result's block indices are below 8. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) ≤ 7 :=
  (by decide +kernel : ∀ t : Fin grid0.N, _)

/-- Every (row block, column block) pair is some point's. -/
theorem index_onto : ∀ (q0 q1 : Fin 8), ∃ t : Fin cfg0.N, win0_3.index t = ![q0.val, q1.val] :=
  (by decide +kernel : ∀ (q0 q1 : Fin 8), ∃ t : Fin grid0.N, win0_3.index t = ![q0.val, q1.val])

/-- Row `p` of the first input block at point `t` is scaled point `R` of the first set, `R` = 1024 · (row block) + p. -/
theorem xrow_at (c : Dev nD) (t : Fin cfg0.N) (p : Fin 1024) (k : Fin 64) (R : Fin 8192)
    (hR : R.val = win0_3.index t (0 : Fin 2) * 1024 + p.val) :
    (iblk m c 0 t : Vec Ideal S1024x64 .f32) (ix2 p k)
      = scaled (m ((c : Thread nD τ).loc main_arg0)) (m ((c : Thread nD τ).loc main_arg2)) R k := by
  obtain ⟨e00, e01, -⟩ := index_facts t
  unfold iblk
  rw [View.read_apply]
  show V m c main_v5 _ = _
  refine Eq.trans (congrArg (V m c main_v5) ?_) (HostPrefix.xs_at m c R k)
  funext a; apply Fin.ext
  match a with
  | ⟨0, _⟩ => show win0_0.index t (0 : Fin 2) * 1024 + 1 * p.val = R.val; omega
  | ⟨1, _⟩ => show win0_0.index t (1 : Fin 2) * 64 + 1 * k.val = k.val; omega

/-- Row `q` of the second input block at point `t` is scaled point `C` of the second set, `C` = 1024 · (column block) + q. -/
theorem yrow_at (c : Dev nD) (t : Fin cfg0.N) (q : Fin 1024) (k : Fin 64) (C : Fin 8192)
    (hC : C.val = win0_3.index t (1 : Fin 2) * 1024 + q.val) :
    (iblk m c 1 t : Vec Ideal S1024x64 .f32) (ix2 q k)
      = scaled (m ((c : Thread nD τ).loc main_arg1)) (m ((c : Thread nD τ).loc main_arg2)) C k := by
  obtain ⟨-, -, e10, e11, -⟩ := index_facts t
  unfold iblk
  rw [View.read_apply]
  show V m c main_v8 _ = _
  refine Eq.trans (congrArg (V m c main_v8) ?_) (HostPrefix.ys_at m c C k)
  funext a; apply Fin.ext
  match a with
  | ⟨0, _⟩ => show win0_1.index t (0 : Fin 2) * 1024 + 1 * q.val = C.val; omega
  | ⟨1, _⟩ => show win0_1.index t (1 : Fin 2) * 64 + 1 * k.val = k.val; omega

/-- The scale block at every point is the output scale. -/
theorem scale_blk (c : Dev nD) (t : Fin cfg0.N) :
    (iblk m c 2 t : Vec Ideal S1x1 .f32) (ix2 (0 : Fin 1) (0 : Fin 1))
      = Ideal.exp (m ((c : Thread nD τ).loc main_arg3) (ix1 (0 : Fin 1))) := by
  obtain ⟨-, -, -, -, e20, e21, -⟩ := index_facts t
  unfold iblk
  rw [View.read_apply]
  show V m c main_v2 _ = _
  refine Eq.trans (congrArg (V m c main_v2) ?_) (HostPrefix.scale_at m c)
  funext a; apply Fin.ext
  match a with
  | ⟨0, _⟩ => show win0_2.index t (0 : Fin 2) * 1 + 1 * 0 = 0; omega
  | ⟨1, _⟩ => show win0_2.index t (1 : Fin 2) * 1 + 1 * 0 = 0; omega

/-- WHAT POINT `t` WRITES BACK is block `t` of the matrix. -/
theorem flushed_eq (c : Dev nD) (t : Fin cfg0.N) :
    (dats m 0 c).flushed 3 t = ((cfg0.win 3).blk t).view.read (Elt Ideal) (K m c) := by
  rw [Value.flushed3]
  unfold out0_3
  rw [View.canon_unit_zero zero_offsets]
  simp only [View.ld_unit_zero (S := S1024x64) zero_offsets, View.ld_unit_zero (S := S1x1) zero_offsets]
  obtain ⟨-, -, -, -, -, -, b0, b1⟩ := index_facts t
  funext j
  obtain ⟨p, q, rfl⟩ : ∃ (p q : Fin 1024), j = ix2 p q := ⟨j 0, j 1, eq_ix2 j⟩
  have hR : win0_3.index t (0 : Fin 2) * 1024 + p.val < 8192 := by have := p.isLt; omega
  have hC : win0_3.index t (1 : Fin 2) * 1024 + q.val < 8192 := by have := q.isLt; omega
  show k0_pay1 (F := Ideal) (iblk m c 0 t) (iblk m c 1 t) (iblk m c 2 t) (ix2 p q)
    = K m c (((cfg0.win 3).blk t).view.emb (ix2 p q))
  rw [show ((cfg0.win 3).blk t).view.emb (ix2 p q)
      = ix2 (⟨win0_3.index t (0 : Fin 2) * 1024 + p.val, hR⟩ : Fin 8192) (⟨win0_3.index t (1 : Fin 2) * 1024 + q.val, hC⟩ : Fin 8192) from
    funext fun a => Fin.ext (by
      match a with
      | ⟨0, _⟩ => show win0_3.index t (0 : Fin 2) * 1024 + 1 * p.val = win0_3.index t (0 : Fin 2) * 1024 + p.val; omega
      | ⟨1, _⟩ => show win0_3.index t (1 : Fin 2) * 1024 + 1 * q.val = win0_3.index t (1 : Fin 2) * 1024 + q.val; omega)]
  refine (Payload.pay_apply (iblk m c 0 t) (iblk m c 1 t) (iblk m c 2 t) p q).trans ?_
  show _ = entry (scaled (m ((c : Thread nD τ).loc main_arg0)) (m ((c : Thread nD τ).loc main_arg2)) ⟨_, hR⟩)
      (scaled (m ((c : Thread nD τ).loc main_arg1)) (m ((c : Thread nD τ).loc main_arg2)) ⟨_, hC⟩)
      (Ideal.exp (m ((c : Thread nD τ).loc main_arg3) (ix1 (0 : Fin 1))))
  rw [scale_blk m c t,
    show (fun k : Fin 64 => (iblk m c 0 t : Vec Ideal S1024x64 .f32) (ix2 p k))
        = scaled (m ((c : Thread nD τ).loc main_arg0)) (m ((c : Thread nD τ).loc main_arg2)) ⟨_, hR⟩ from
      funext fun k => xrow_at m c t p k ⟨_, hR⟩ rfl,
    show (fun k : Fin 64 => (iblk m c 1 t : Vec Ideal S1024x64 .f32) (ix2 q k))
        = scaled (m ((c : Thread nD τ).loc main_arg1)) (m ((c : Thread nD τ).loc main_arg2)) ⟨_, hC⟩ from
      funext fun k => yrow_at m c t q k ⟨_, hC⟩ rfl]

/-- An index of the matrix is in point `t`'s block iff each coordinate is in the block's range on its axis. -/
theorem mem_blk (t : Fin cfg0.N) (i : S8192x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v9).slice (win0_3.rect t)).set ↔ _
  rw [View.set_slice_whole, Rect.mem_set_unit]
  exact Iff.rfl

/-- Every index of the matrix is in the block of the point (row / 1024, column / 1024). -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE ARRAY after the run is the matrix. -/
theorem final (c : Dev nD) : (dats m 0 c).arrAt 3 cfg0.N = K m c :=
  (dats m 0 c).arrAt_eq_of_cover 3 (K m c) (fun t _ => flushed_eq m c t) cover

/-- The kernel's run, read: the result array at the matrix of the arguments, the arguments unchanged. -/
theorem run : θ_run defs (onTc (τ := τ) (main (F := Ideal))) ⟨m, fun _ => 0, ρ⟩ fun r => ∀ c : Dev nD,
      r.2.mem ((c : Thread nD τ).loc main_v9) = K m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  The ARD RBF kernel matrix, tiled, against its whole-array reference: the five claims.

  Both programs compute, for point sets x, y of 8192 points in ℝ⁶⁴, lengthscales ℓ = exp(log ℓ) and an output
  scale σ = exp(log σ), the matrix K[n, m] = σ · exp(−½ · max(‖x_n/ℓ‖² + ‖y_m/ℓ‖² − 2⟨x_n/ℓ, y_m/ℓ⟩, 0)) — the
  function `Cert.Rbf.G` of the four arguments (Proof/Spec.lean). The tiled program scales the point sets on the
  host and computes the matrix block by block on an 8 × 8 grid; the reference computes it in one piece. Over
  the extended reals the two agree entry by entry with no side condition: they apply the same scalar operations
  in the same grouping, and differ only in how the three sums over the 64 features are taken (a lane sum and a
  matrix product into a zero accumulator on one side, a host reduction from zero and a contraction on the other),
  each of which is the same finite sum.

  The modules: Spec (the matrix), RefIsG (the reference's result is the matrix), LibKeepdims (a row sum kept as a
  column, and such a column broadcast either way, read at an index), Payload (an element of a stored
  block is the matrix entry of the block's two input rows), HostPrefix (the input arrays the grid reads are the
  scaled point sets and the scale), Blocks (the blocks written back tile the result, so it is the matrix). Here:
  the three frame claims, the idealization claim (nothing was rewritten, so it states nothing), and the equality.
-/
import proofs.«154401_j12661563589010_1_alg».proof.Defs
import proofs.«154401_j12661563589010_1_alg».proof.Proof.Gen.Kernel
import proofs.«154401_j12661563589010_1_alg».proof.Proof.Gen.Kernel.Skeleton
import proofs.«154401_j12661563589010_1_alg».proof.Proof.Gen.Kernel.Launch
import proofs.«154401_j12661563589010_1_alg».proof.Proof.Gen.Kernel.Points
import proofs.«154401_j12661563589010_1_alg».proof.Proof.Gen.Kernel.Frame
import proofs.«154401_j12661563589010_1_alg».proof.Proof.Gen.KernelIdeal
import proofs.«154401_j12661563589010_1_alg».proof.Proof.Gen.KernelIdeal.Skeleton
import proofs.«154401_j12661563589010_1_alg».proof.Proof.Gen.KernelIdeal.Launch
import proofs.«154401_j12661563589010_1_alg».proof.Proof.Gen.KernelIdeal.Points
import proofs.«154401_j12661563589010_1_alg».proof.Proof.Gen.KernelIdeal.Frame
import proofs.«154401_j12661563589010_1_alg».proof.Proof.Gen.ReferenceIdeal
import proofs.«154401_j12661563589010_1_alg».proof.Proof.Gen.Pre_finite_inputs
import proofs.«154401_j12661563589010_1_alg».proof.Proof.Gen.KernelIdeal.Value
import proofs.«154401_j12661563589010_1_alg».proof.Proof.Gen.ReferenceIdeal.Run
import proofs.«154401_j12661563589010_1_alg».proof.Proof.Gen.ReferenceIdeal.Read
import proofs.«154401_j12661563589010_1_alg».proof.Proof.RefIsG
import proofs.«154401_j12661563589010_1_alg».proof.Proof.Blocks
import Idealize.ShloMosaic.Adequacy
import Idealize.ShloMosaic.Init

noncomputable section

namespace Cert.Proof

open Idealize.ShloMosaic Idealize.SL.Sem

/-- The tiled program as printed runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the tiled program was rewritten for the reading on the extended reals. -/
theorem preserves : Cert.preserves_Kernel_KernelIdeal := trivial

/-- From memories that agree on the four arguments both programs end with the matrix `G` of those arguments in
    their result arrays: the tiled program's blocks tile it (`Whole.run`), and the reference's last stage is it
    (`RefValue.result_eq`). -/
theorem algebraic : Cert.algebraic_KernelIdeal_ReferenceIdeal := by
  intro m ρ m' ρ' _ hagree
  refine ⟨fun c => Cert.KernelIdeal.Whole.K m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
